-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : FVec F S11008x32 .f32) (main_arg3 : FVec F S11008x32 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008x32 : Shape := ⟨2, ![11008, 32]⟩
abbrev S11008 : Shape := ⟨1, ![11008]⟩
abbrev S8192x4096 : Shape := ⟨2, ![8192, 4096]⟩
abbrev S1x11008 : Shape := ⟨2, ![1, 11008]⟩
abbrev S8192x11008 : Shape := ⟨2, ![8192, 11008]⟩
abbrev S512x4096 : Shape := ⟨2, ![512, 4096]⟩
abbrev S256x4096 : Shape := ⟨2, ![256, 4096]⟩
abbrev S256x32 : Shape := ⟨2, ![256, 32]⟩
abbrev S1x256 : Shape := ⟨2, ![1, 256]⟩
abbrev S512x256 : Shape := ⟨2, ![512, 256]⟩
abbrev S256x32x128 : Shape := ⟨3, ![256, 32, 128]⟩
abbrev S256x32x1 : Shape := ⟨3, ![256, 32, 1]⟩
abbrev S4x2048x11008 : Shape := ⟨3, ![4, 2048, 11008]⟩

abbrev nBuf : Space → Nat
  | .hbm => 9
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S8192x4096, .f32⟩
  | .hbm, ⟨6, _⟩ => ⟨S1x11008, .f32⟩
  | .hbm, ⟨7, _⟩ => ⟨S8192x11008, .f32⟩
  | .hbm, ⟨8, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x32, .f32⟩
  | .local _ .vmem, ⟨5, _⟩ => ⟨S256x32, .f32⟩
  | .local _ .vmem, ⟨6, _⟩ => ⟨S256x32, .f32⟩
  | .local _ .vmem, ⟨7, _⟩ => ⟨S256x32, .f32⟩
  | .local _ .vmem, ⟨8, _⟩ => ⟨S1x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x11008_S4x2048x11008 : S8192x11008.ShapeCasts S4x2048x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S11008x32.size a
  hwx0_3 : ∀ i : grid0.Coords, EltTy.bits .f32 = 32 ∨ (Rect.block (s := S11008x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x11008.size a
  hwx0_5 : ∀ i : grid0.Coords, EltTy.bits .f32 = 32 ∨ (Rect.block (s := S8192x11008) S512x256.size (cc0_transform_5 i) (hinb0_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x32 : Shape := ⟨2, ![11008, 32]⟩
abbrev S11008 : Shape := ⟨1, ![11008]⟩
abbrev S11008x32x128 : Shape := ⟨3, ![11008, 32, 128]⟩
abbrev S11008x32x1 : Shape := ⟨3, ![11008, 32, 1]⟩
abbrev S4x2048x11008 : Shape := ⟨3, ![4, 2048, 11008]⟩
abbrev S1x1x11008 : Shape := ⟨3, ![1, 1, 11008]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S11008x32x128, .i32⟩
  | .hbm, ⟨6, _⟩ => ⟨S11008x32x128, .f32⟩
  | .hbm, ⟨7, _⟩ => ⟨S11008x32x1, .f32⟩
  | .hbm, ⟨8, _⟩ => ⟨S11008x32x1, .f32⟩
  | .hbm, ⟨9, _⟩ => ⟨S11008x32x128, .f32⟩
  | .hbm, ⟨10, _⟩ => ⟨S11008x32x128, .f32⟩
  | .hbm, ⟨11, _⟩ => ⟨S11008x32x128, .f32⟩
  | .hbm, ⟨12, _⟩ => ⟨S11008x32x128, .f32⟩
  | .hbm, ⟨13, _⟩ => ⟨S11008x4096, .f32⟩
  | .hbm, ⟨14, _⟩ => ⟨S4x2048x11008, .f32⟩
  | .hbm, ⟨15, _⟩ => ⟨S1x1x11008, .f32⟩
  | .hbm, ⟨16, _⟩ => ⟨S4x2048x11008, .f32⟩
  | .hbm, ⟨17, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  The quantized linear layer as one function of its arrays.

  A weight row `o` is stored as 4096 integers in 32 groups of 128 consecutive columns; group `g` of row `o` has a
  scale `sc (o, g)` and a zero point `z (o, g)`.  The weight at column `k` is

      w (o, k) = sc (o, k / 128) · (q (o, k) − z (o, k / 128)),

  the integer `q (o, k)` read as the real number it denotes.  The layer sends a row `x (p, ·)` of 4096 numbers to

      y (p, o) = Σ_k x (p, k) · w (o, k) + b (o).

  Both programs compute this sum over the same 4096 columns in the same arrangement, so no law of the extended reals
  beyond rewriting the indices is needed.  Stated here: the weight, an entry of the result for a matrix of any number of
  rows against any number of weight rows, the result over the `[4, 2048, ·]` arrangement of the rows, that this
  arrangement is the `[8192, ·]` one re-laid row-major, and that an entry computed from blocks of the arrays is the
  entry of the arrays at the block's place.
-/
import Idealize.ShloMosaic.PureOps.Ideal
import Idealize.ShloMosaic.Lib.ValueIdx
import Idealize.ShloMosaic.Lib.Pipeline.Value

noncomputable section

namespace Cert.QLinear

open Idealize.ShloMosaic Idealize.ShloMosaic.ValueIdx

/-- The group of 128 columns that column `k` lies in. -/
abbrev grp (k : Fin 4096) : Fin 32 := ⟨k.val / 128, by have := k.isLt; omega⟩

/-- The place of column `k` inside its group. -/
abbrev lane (k : Fin 4096) : Fin 128 := ⟨k.val % 128, Nat.mod_lt _ (by decide)⟩

/-- The dequantized weight at row `o`, column `k`: the group's scale times the integer less the group's zero point. -/
def weight {n : ℕ} (q : (⟨2, ![n, 4096]⟩ : Shape).Idx → BitVec 32) (sc z : (⟨2, ![n, 32]⟩ : Shape).Idx → EReal)
    (o : Fin n) (k : Fin 4096) : EReal :=
  sc (ix2 o (grp k)) * (FloatOps.sitofp (F := Ideal) .f32 (q (ix2 o k)) - z (ix2 o (grp k)))

/-- One entry of the layer's result: row `p` of `x` against weight row `o`, plus the bias of `o`. -/
def entry {a n : ℕ} (x : (⟨2, ![a, 4096]⟩ : Shape).Idx → EReal) (q : (⟨2, ![n, 4096]⟩ : Shape).Idx → BitVec 32)
    (sc z : (⟨2, ![n, 32]⟩ : Shape).Idx → EReal) (b : (⟨2, ![1, n]⟩ : Shape).Idx → EReal) (p : Fin a) (o : Fin n) : EReal :=
  (∑ k : Fin 4096, x (ix2 p k) * weight q sc z o k) + b (ix2 (0 : Fin 1) o)

/-- The result over rows laid out as one matrix. -/
def rows {a n : ℕ} (x : (⟨2, ![a, 4096]⟩ : Shape).Idx → EReal) (q : (⟨2, ![n, 4096]⟩ : Shape).Idx → BitVec 32)
    (sc z : (⟨2, ![n, 32]⟩ : Shape).Idx → EReal) (b : (⟨2, ![1, n]⟩ : Shape).Idx → EReal) :
    (⟨2, ![a, n]⟩ : Shape).Idx → EReal :=
  fun j => entry x q sc z b (j 0) (j 1)

/-- The result over rows laid out `[4, 2048, ·]`, the bias a plain vector. -/
def result (x : (⟨3, ![4, 2048, 4096]⟩ : Shape).Idx → EReal) (q : (⟨2, ![11008, 4096]⟩ : Shape).Idx → BitVec 32)
    (sc z : (⟨2, ![11008, 32]⟩ : Shape).Idx → EReal) (b : (⟨1, ![11008]⟩ : Shape).Idx → EReal) :
    (⟨3, ![4, 2048, 11008]⟩ : Shape).Idx → EReal :=
  fun i => (∑ k : Fin 4096, x (ix3 (i 0) (i 1) k) * weight q sc z (i 2) k) + b (ix1 (i 2))

/-- Rows `[4, 2048, ·]` re-laid as `[8192, ·]`, the bias as a one-row matrix, the matrix result re-laid back: the
    result over `[4, 2048, ·]`.  Row `(i₀, i₁)` is row `i₀ · 2048 + i₁` of the matrix. -/
theorem rows_relaid (x : (⟨3, ![4, 2048, 4096]⟩ : Shape).Idx → EReal) (q : (⟨2, ![11008, 4096]⟩ : Shape).Idx → BitVec 32)
    (sc z : (⟨2, ![11008, 32]⟩ : Shape).Idx → EReal) (b : (⟨1, ![11008]⟩ : Shape).Idx → EReal)
    (h0 : (⟨3, ![4, 2048, 4096]⟩ : Shape).ShapeCasts ⟨2, ![8192, 4096]⟩)
    (h1 : (⟨1, ![11008]⟩ : Shape).ShapeCasts ⟨2, ![1, 11008]⟩)
    (h2 : (⟨2, ![8192, 11008]⟩ : Shape).ShapeCasts ⟨3, ![4, 2048, 11008]⟩) :
    shapeCast ⟨3, ![4, 2048, 11008]⟩ (rows (shapeCast ⟨2, ![8192, 4096]⟩ x h0) q sc z (shapeCast ⟨2, ![1, 11008]⟩ b h1)) h2
      = result x q sc z b := by
  funext i
  obtain ⟨i0, i1, o, rfl⟩ : ∃ (i0 : Fin 4) (i1 : Fin 2048) (o : Fin 11008), i = ix3 i0 i1 o := ⟨i 0, i 1, i 2, eq_ix3 i⟩
  have hr : i0.val * 2048 + i1.val < 8192 := by have := i0.isLt; have := i1.isLt; omega
  refine (shapeCast_apply _ h2 (ix3 i0 i1 o) (ix2 (⟨i0.val * 2048 + i1.val, hr⟩ : Fin 8192) o) ?_).trans ?_
  · rw [Shape.rowMajor_val_two, Shape.rowMajor_val_three]
    show (i0.val * 2048 + i1.val) * 11008 + o.val = (i0.val * 2048 + i1.val) * 11008 + o.val
    rfl
  · show (∑ k : Fin 4096, shapeCast ⟨2, ![8192, 4096]⟩ x h0 (ix2 (⟨i0.val * 2048 + i1.val, hr⟩ : Fin 8192) k) * weight q sc z o k)
        + shapeCast ⟨2, ![1, 11008]⟩ b h1 (ix2 (0 : Fin 1) o)
      = (∑ k : Fin 4096, x (ix3 i0 i1 k) * weight q sc z o k) + b (ix1 o)
    have ex : ∀ k : Fin 4096, shapeCast ⟨2, ![8192, 4096]⟩ x h0 (ix2 (⟨i0.val * 2048 + i1.val, hr⟩ : Fin 8192) k) = x (ix3 i0 i1 k) :=
      fun k => shapeCast_apply x h0 _ (ix3 i0 i1 k) (by
        rw [Shape.rowMajor_val_two, Shape.rowMajor_val_three]
        show (i0.val * 2048 + i1.val) * 4096 + k.val = (i0.val * 2048 + i1.val) * 4096 + k.val
        rfl)
    have eb : shapeCast ⟨2, ![1, 11008]⟩ b h1 (ix2 (0 : Fin 1) o) = b (ix1 o) :=
      shapeCast_apply b h1 _ (ix1 o) (by
        rw [Shape.rowMajor_val_two, Shape.rowMajor_val_one]
        show o.val = 0 * 11008 + o.val
        omega)
    rw [eb]
    exact congrArg (· + b (ix1 o)) (Finset.sum_congr rfl fun k _ => by rw [ex k])

/-- An entry computed from BLOCKS of the arrays is the arrays' entry at the block's place: if the `x` block's row `p`
    is row `P` of `x`, the weight-side blocks' row `o` is row `O` of theirs, and the bias block's entry `o` is entry
    `O` of the bias, the two entries are one sum. -/
theorem entry_of_blocks {a n A N : ℕ}
    (x : (⟨2, ![a, 4096]⟩ : Shape).Idx → EReal) (q : (⟨2, ![n, 4096]⟩ : Shape).Idx → BitVec 32)
    (sc z : (⟨2, ![n, 32]⟩ : Shape).Idx → EReal) (b : (⟨2, ![1, n]⟩ : Shape).Idx → EReal)
    (X : (⟨2, ![A, 4096]⟩ : Shape).Idx → EReal) (Q : (⟨2, ![N, 4096]⟩ : Shape).Idx → BitVec 32)
    (SC Z : (⟨2, ![N, 32]⟩ : Shape).Idx → EReal) (B : (⟨2, ![1, N]⟩ : Shape).Idx → EReal)
    (p : Fin a) (o : Fin n) (P : Fin A) (O : Fin N)
    (hx : ∀ k : Fin 4096, x (ix2 p k) = X (ix2 P k)) (hq : ∀ k : Fin 4096, q (ix2 o k) = Q (ix2 O k))
    (hsc : ∀ g : Fin 32, sc (ix2 o g) = SC (ix2 O g)) (hz : ∀ g : Fin 32, z (ix2 o g) = Z (ix2 O g))
    (hb : b (ix2 (0 : Fin 1) o) = B (ix2 (0 : Fin 1) O)) :
    entry x q sc z b p o = entry X Q SC Z B P O := by
  unfold entry weight
  rw [hb]
  exact congrArg (· + B (ix2 (0 : Fin 1) O)) (Finset.sum_congr rfl fun k _ => by rw [hx k, hq k, hsc (grp k), hz (grp k)])

end Cert.QLinear

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibGroupLayout.lean ====
/-
  Rows of 4096 entries seen as 32 groups of 128, read at an index.

  Row-major, entry `(o, g, l)` of the `[n, 32, 128]` arrangement is entry `(o, g · 128 + l)` of the `[n, 4096]` one, and
  entry `(o, k)` of `[n, 4096]` is entry `(o, k / 128, k % 128)` of `[n, 32, 128]`.  A per-group value `[n, 32]`, given a
  trailing axis of extent one and broadcast along the 128 columns of each group, has at `(o, g, l)` the group's value
  `(o, g)`.
-/
import Idealize.ShloMosaic.Lib.Pipeline.Value
import Idealize.ShloMosaic.Lib.ValueIdx

noncomputable section

namespace Cert.GroupLayout

open Idealize.ShloMosaic Idealize.ShloMosaic.ValueIdx

/-- `[n, 4096]` re-laid as `[n, 32, 128]`: entry `(o, g, l)` is entry `(o, g · 128 + l)`. -/
theorem split_apply {α : Type} {n : ℕ} (v : (⟨2, ![n, 4096]⟩ : Shape).Idx → α)
    (h : (⟨2, ![n, 4096]⟩ : Shape).ShapeCasts ⟨3, ![n, 32, 128]⟩) (o : Fin n) (g : Fin 32) (l : Fin 128) :
    shapeCast ⟨3, ![n, 32, 128]⟩ v h (ix3 o g l)
      = v (ix2 o (⟨g.val * 128 + l.val, by have := g.isLt; have := l.isLt; omega⟩ : Fin 4096)) := by
  refine shapeCast_apply v h (ix3 o g l) _ ?_
  rw [Shape.rowMajor_val_two, Shape.rowMajor_val_three]
  show o.val * 4096 + (g.val * 128 + l.val) = (o.val * 32 + g.val) * 128 + l.val
  omega

/-- `[n, 32, 128]` re-laid as `[n, 4096]`: entry `(o, k)` is entry `(o, k / 128, k % 128)`. -/
theorem merge_apply {α : Type} {n : ℕ} (v : (⟨3, ![n, 32, 128]⟩ : Shape).Idx → α)
    (h : (⟨3, ![n, 32, 128]⟩ : Shape).ShapeCasts ⟨2, ![n, 4096]⟩) (o : Fin n) (k : Fin 4096) :
    shapeCast ⟨2, ![n, 4096]⟩ v h (ix2 o k)
      = v (ix3 o (⟨k.val / 128, by have := k.isLt; omega⟩ : Fin 32) (⟨k.val % 128, Nat.mod_lt _ (by decide)⟩ : Fin 128)) := by
  refine shapeCast_apply v h (ix2 o k) _ ?_
  rw [Shape.rowMajor_val_two, Shape.rowMajor_val_three]
  show (o.val * 32 + k.val / 128) * 128 + k.val % 128 = o.val * 4096 + k.val
  omega

/-- The two re-layings undo each other: the `[n, 32, 128]` arrangement read at `(o, k / 128, k % 128)` is entry `(o, k)`. -/
theorem split_at_merge {α : Type} {n : ℕ} (v : (⟨2, ![n, 4096]⟩ : Shape).Idx → α)
    (h : (⟨2, ![n, 4096]⟩ : Shape).ShapeCasts ⟨3, ![n, 32, 128]⟩) (o : Fin n) (k : Fin 4096) :
    shapeCast ⟨3, ![n, 32, 128]⟩ v h
        (ix3 o (⟨k.val / 128, by have := k.isLt; omega⟩ : Fin 32) (⟨k.val % 128, Nat.mod_lt _ (by decide)⟩ : Fin 128))
      = v (ix2 o k) := by
  refine shapeCast_apply v h _ (ix2 o k) ?_
  rw [Shape.rowMajor_val_two, Shape.rowMajor_val_three]
  show o.val * 4096 + k.val = (o.val * 32 + k.val / 128) * 128 + k.val % 128
  omega

/-- A per-group value `[n, 32]` given a trailing unit axis and broadcast along each group's 128 columns: at
    `(o, g, l)` it is the value of group `(o, g)`. -/
theorem spread_apply {α : Type} {n : ℕ} (v : (⟨2, ![n, 32]⟩ : Shape).Idx → α)
    (h1 : (⟨2, ![n, 32]⟩ : Shape).ShapeCasts ⟨3, ![n, 32, 1]⟩)
    (h2 : (⟨3, ![n, 32, 1]⟩ : Shape).Broadcasts ⟨3, ![n, 32, 128]⟩) (o : Fin n) (g : Fin 32) (l : Fin 128) :
    broadcastTo ⟨3, ![n, 32, 128]⟩ (shapeCast ⟨3, ![n, 32, 1]⟩ v h1) h2 (ix3 o g l) = v (ix2 o g) := by
  refine (broadcastTo_apply _ h2 (ix3 o g l) (ix3 o g (0 : Fin 1)) fun ax => ?_).trans ?_
  · match ax with
    | ⟨0, _⟩ =>
      show o.val = if n = 1 then 0 else o.val
      split
      · have := o.isLt; omega
      · rfl
    | ⟨1, _⟩ =>
      show g.val = if (32 : ℕ) = 1 then 0 else g.val
      rw [if_neg (by decide)]
    | ⟨2, _⟩ =>
      show (0 : ℕ) = if (1 : ℕ) = 1 then 0 else l.val
      rw [if_pos rfl]
  · refine shapeCast_apply v h1 (ix3 o g (0 : Fin 1)) (ix2 o g) ?_
    rw [Shape.rowMajor_val_two, Shape.rowMajor_val_three]
    show o.val * 32 + g.val = (o.val * 32 + g.val) * 1 + 0
    omega

end Cert.GroupLayout

end
-- ==== Proof.Payload.lean ====
/-
  What the kernel's body computes, at an index.

  From a `[512, 4096]` block of `x`, a `[256, 4096]` block of integers, `[256, 32]` blocks of scales and zero points
  and a `[1, 256]` block of the bias, the body re-lays the integers (as reals) as `[256, 32, 128]`, subtracts the zero
  points and multiplies by the scales, each spread over its group's 128 columns, re-lays the weights back as
  `[256, 4096]`, multiplies the `x` block by the transposed weights into a zero accumulator and adds the bias row to
  every row.  Changes of float format are the identity on the extended reals.  So entry `(p, o)` of what it stores is
  the sum over the columns `k` of `x (p, k)` times the weight `(o, k)` of the blocks, plus the bias block's entry `o`:
  the specification's entry of the blocks.
-/
import proofs.«179375_j68470368633330_1_alg».proof.Proof.Gen.KernelIdeal.Skeleton
import proofs.«179375_j68470368633330_1_alg».proof.Proof.Spec
import proofs.«179375_j68470368633330_1_alg».proof.Proof.LibRowsProduct
import proofs.«179375_j68470368633330_1_alg».proof.Proof.LibGroupLayout

noncomputable section

namespace Cert.KernelIdeal.BodyValue

open Cert.KernelIdeal Cert.KernelIdeal.Gen
open Idealize.ShloMosaic Idealize.ShloMosaic.ValueIdx Cert.QLinear

/-- The weights the body builds from its blocks, read at row `o`, column `k`: the specification's weight of the blocks. -/
theorem weights_apply (x1 : Vec Ideal S256x4096 .i32) (x2 x3 : Vec Ideal S256x32 .f32)
    (h1 : S256x32.ShapeCasts S256x32x1) (h2 : S256x32x1.Broadcasts S256x32x128)
    (h3 : S256x4096.ShapeCasts S256x32x128) (h4 : S256x32x128.ShapeCasts S256x4096) (o : Fin 256) (k : Fin 4096) :
    shapeCast S256x4096
        (mulf (broadcastTo S256x32x128 (shapeCast S256x32x1 x2 h1) h2)
          (subf (shapeCast S256x32x128 (sitofp (F := Ideal) .f32 x1) h3) (broadcastTo S256x32x128 (shapeCast S256x32x1 x3 h1) h2)))
        h4 (ix2 o k)
      = weight x1 x2 x3 o k := by
  refine (Cert.GroupLayout.merge_apply _ h4 o k).trans ?_
  rw [mulf_apply, subf_apply, Cert.GroupLayout.spread_apply x2 h1 h2, Cert.GroupLayout.spread_apply x3 h1 h2,
    Cert.GroupLayout.split_at_merge (sitofp (F := Ideal) .f32 x1) h3 o k]
  rfl

/-- Entry `(p, o)` of the body's stored value is the specification's entry `(p, o)` of the blocks it loaded. -/
theorem pay_apply (x0 : Vec Ideal S512x4096 .f32) (x1 : Vec Ideal S256x4096 .i32) (x2 x3 : Vec Ideal S256x32 .f32)
    (x4 : Vec Ideal S1x256 .f32) (p : Fin 512) (o : Fin 256) :
    k0_pay1 (F := Ideal) x0 x1 x2 x3 x4 (ix2 p o) = entry x0 x1 x2 x3 x4 p o := by
  unfold k0_pay1 entry
  refine (addf_apply _ _ _).trans (congrArg₂ (· + ·) ?_ ?_)
  · refine (Cert.RowsProduct.matmul_nt_apply _ none _ _ p o).trans (Finset.sum_congr rfl fun k _ => ?_)
    refine congrArg₂ (· * ·) ?_ ?_
    · exact congrFun (shapeCast_self x0 _) (ix2 p k)
    · exact weights_apply x1 x2 x3 _ _ _ _ o k
  · exact (Cert.RowsProduct.broadcastTo_1n_an_apply _ _ p o).trans (congrFun (shapeCast_self x4 _) (ix2 (0 : Fin 1) o))

end Cert.KernelIdeal.BodyValue

end
-- ==== Proof.KernelValue.lean ====
/-
  What the kernel leaves in its result array.

  The grid has 16 × 43 points; point `t = (t / 43, t % 43)` stages rows `[512 · (t / 43), +512)` of the `[8192, 4096]`
  matrix of `x`, rows `[256 · (t % 43), +256)` of the integers, scales and zero points, and entries
  `[256 · (t % 43), +256)` of the bias row, and writes back the `512 × 256` block at `(t / 43, t % 43)` of the
  `[8192, 11008]` result.  Entry `(p, o)` of what the body stores is the specification's entry of the staged blocks, so
  what point `t` writes back is its block of ONE matrix: the specification's rows over the arrays as the region finds
  them.  The 688 blocks tile the result matrix — entry `(r, n)` lies in the block of point `(r / 512) · 43 + n / 256` —
  so the matrix ends holding exactly that.  Before the region the program only re-lays `x` as a matrix and the bias as
  a one-row matrix; after it, it re-lays the result matrix as `[4, 2048, 11008]`.
-/
import proofs.«179375_j68470368633330_1_alg».proof.Proof.Gen.KernelIdeal.Frame
import proofs.«179375_j68470368633330_1_alg».proof.Proof.Payload
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.QLinear

variable (m : (ℓ : Loc nD τ sig) → Buf (Elt Ideal) ℓ) (ρ : Dev nD → PrngReg)

theorem zero_off : (![0, 0] : Fin 2 → Nat) = fun _ => 0 := funext fun a => by fin_cases a <;> rfl

/-- The result matrix as the region computes it: the specification's rows over the arrays as the region finds them. -/
def regionValue (c : Dev nD) : S8192x11008.Idx → EReal :=
  rows (a := 8192) (n := 11008) (V m c main_v0) (V m c main_arg1) (V m c main_arg2) (V m c main_arg3) (V m c main_v1)

/-- Where each window's block sits at point `t`, decided over the 688 points: the result's block is `(t / 43, t % 43)`;
    the `x` block follows its first coordinate, the weight-side blocks and the bias block its second. -/
theorem idx_facts : ∀ t : Fin cfg0.N,
    win0_5.index t (0 : Fin 2) = t.val / 43 ∧ win0_5.index t (1 : Fin 2) = t.val % 43
    ∧ win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2) :=
  (by decide +kernel : ∀ t : Fin grid0.N, _)

/-- A staged block read at an index is the array, as the region finds it, read where the block sits. -/
theorem read0 (c : Dev nD) (t : Fin cfg0.N) (y : S512x4096.Idx) :
    iblk m c 0 t y = V m c main_v0 (((cfg0.win 0).blk t).view.emb y) := rfl
theorem read1 (c : Dev nD) (t : Fin cfg0.N) (y : S256x4096.Idx) :
    iblk m c 1 t y = V m c main_arg1 (((cfg0.win 1).blk t).view.emb y) := rfl
theorem read2 (c : Dev nD) (t : Fin cfg0.N) (y : S256x32.Idx) :
    iblk m c 2 t y = V m c main_arg2 (((cfg0.win 2).blk t).view.emb y) := rfl
theorem read3 (c : Dev nD) (t : Fin cfg0.N) (y : S256x32.Idx) :
    iblk m c 3 t y = V m c main_arg3 (((cfg0.win 3).blk t).view.emb y) := rfl
theorem read4 (c : Dev nD) (t : Fin cfg0.N) (y : S1x256.Idx) :
    iblk m c 4 t y = V m c main_v1 (((cfg0.win 4).blk t).view.emb y) := rfl

/-- WHAT POINT `t` WRITES BACK is its block of the region's matrix. -/
theorem flushed_eq (c : Dev nD) (t : Fin cfg0.N) :
    (dats m 0 c).flushed 5 t = ((cfg0.win 5).blk t).view.read (Elt Ideal) (regionValue m c) := by
  show (cfg0.win 5).cut (grid0.coords t) ((dats m 0 c).after 5 t) = _
  rw [after0_5]
  unfold out0_5
  rw [View.canon_unit_zero zero_off]
  simp only [View.ld_unit_zero (S := S512x4096) zero_off, View.ld_unit_zero (S := S256x4096) zero_off,
    View.ld_unit_zero (S := S256x32) zero_off, View.ld_unit_zero (S := S1x256) zero_off]
  obtain ⟨f50, f51, f00, f01, f10, f11, f20, f21, f30, f31, f40, f41⟩ := idx_facts t
  have hN : t.val < 688 := by have h := t.isLt; have e : cfg0.N = 688 := N_0; omega
  funext y
  obtain ⟨p, o, rfl⟩ : ∃ (p : Fin 512) (o : Fin 256), y = ix2 p o := ⟨y 0, y 1, eq_ix2 y⟩
  have hp := p.isLt
  have ho := o.isLt
  show k0_pay1 (F := Ideal) (iblk m c 0 t) (iblk m c 1 t) (iblk m c 2 t) (iblk m c 3 t) (iblk m c 4 t) (ix2 p o)
      = regionValue m c (((cfg0.win 5).blk t).view.emb (ix2 p o))
  refine (BodyValue.pay_apply _ _ _ _ _ p o).trans ?_
  have hP : win0_5.index t (0 : Fin 2) * 512 + p.val < 8192 := by omega
  have hO : win0_5.index t (1 : Fin 2) * 256 + o.val < 11008 := by omega
  have e5 : ((cfg0.win 5).blk t).view.emb (ix2 p o)
      = ix2 (⟨win0_5.index t (0 : Fin 2) * 512 + p.val, hP⟩ : Fin 8192) (⟨win0_5.index t (1 : Fin 2) * 256 + o.val, hO⟩ : Fin 11008) := by
    funext a; apply Fin.ext
    match a with
    | ⟨0, _⟩ => show win0_5.index t (0 : Fin 2) * 512 + 1 * p.val = win0_5.index t (0 : Fin 2) * 512 + p.val; omega
    | ⟨1, _⟩ => show win0_5.index t (1 : Fin 2) * 256 + 1 * o.val = win0_5.index t (1 : Fin 2) * 256 + o.val; omega
  have e0 : ∀ k : Fin 4096, ((cfg0.win 0).blk t).view.emb (ix2 p k)
      = ix2 (⟨win0_5.index t (0 : Fin 2) * 512 + p.val, hP⟩ : Fin 8192) k := fun k => by
    funext a; apply Fin.ext
    match a with
    | ⟨0, _⟩ => show win0_0.index t (0 : Fin 2) * 512 + 1 * p.val = win0_5.index t (0 : Fin 2) * 512 + p.val; omega
    | ⟨1, _⟩ => show win0_0.index t (1 : Fin 2) * 4096 + 1 * k.val = k.val; omega
  have e1 : ∀ k : Fin 4096, ((cfg0.win 1).blk t).view.emb (ix2 o k)
      = ix2 (⟨win0_5.index t (1 : Fin 2) * 256 + o.val, hO⟩ : Fin 11008) k := fun k => by
    funext a; apply Fin.ext
    match a with
    | ⟨0, _⟩ => show win0_1.index t (0 : Fin 2) * 256 + 1 * o.val = win0_5.index t (1 : Fin 2) * 256 + o.val; omega
    | ⟨1, _⟩ => show win0_1.index t (1 : Fin 2) * 4096 + 1 * k.val = k.val; omega
  have e2 : ∀ g : Fin 32, ((cfg0.win 2).blk t).view.emb (ix2 o g)
      = ix2 (⟨win0_5.index t (1 : Fin 2) * 256 + o.val, hO⟩ : Fin 11008) g := fun g => by
    funext a; apply Fin.ext
    match a with
    | ⟨0, _⟩ => show win0_2.index t (0 : Fin 2) * 256 + 1 * o.val = win0_5.index t (1 : Fin 2) * 256 + o.val; omega
    | ⟨1, _⟩ => show win0_2.index t (1 : Fin 2) * 32 + 1 * g.val = g.val; omega
  have e3 : ∀ g : Fin 32, ((cfg0.win 3).blk t).view.emb (ix2 o g)
      = ix2 (⟨win0_5.index t (1 : Fin 2) * 256 + o.val, hO⟩ : Fin 11008) g := fun g => by
    funext a; apply Fin.ext
    match a with
    | ⟨0, _⟩ => show win0_3.index t (0 : Fin 2) * 256 + 1 * o.val = win0_5.index t (1 : Fin 2) * 256 + o.val; omega
    | ⟨1, _⟩ => show win0_3.index t (1 : Fin 2) * 32 + 1 * g.val = g.val; omega
  have e4 : ((cfg0.win 4).blk t).view.emb (ix2 (0 : Fin 1) o)
      = ix2 (0 : Fin 1) (⟨win0_5.index t (1 : Fin 2) * 256 + o.val, hO⟩ : Fin 11008) := by
    funext a; apply Fin.ext
    match a with
    | ⟨0, _⟩ => show win0_4.index t (0 : Fin 2) * 1 + 1 * 0 = 0; omega
    | ⟨1, _⟩ => show win0_4.index t (1 : Fin 2) * 256 + 1 * o.val = win0_5.index t (1 : Fin 2) * 256 + o.val; omega
  rw [e5]
  unfold regionValue rows
  exact entry_of_blocks _ _ _ _ _ _ _ _ _ _ p o _ _
    (fun k => (read0 m c t (ix2 p k)).trans (congrArg (V m c main_v0) (e0 k)))
    (fun k => (read1 m c t (ix2 o k)).trans (congrArg (V m c main_arg1) (e1 k)))
    (fun g => (read2 m c t (ix2 o g)).trans (congrArg (V m c main_arg2) (e2 g)))
    (fun g => (read3 m c t (ix2 o g)).trans (congrArg (V m c main_arg3) (e3 g)))
    ((read4 m c t (ix2 (0 : Fin 1) o)).trans (congrArg (V m c main_v1) e4))

/-- An index of the result matrix is in point `t`'s block iff each coordinate is in the block's range on its axis. -/
theorem mem_blk (t : Fin cfg0.N) (i : S8192x11008.Idx) :
    i ∈ ((cfg0.win 5).blk t).view.set ↔ ∀ a : Fin 2, win0_5.index t a * S512x256.size a ≤ (i a).val
      ∧ (i a).val < win0_5.index t a * S512x256.size a + S512x256.size a := by
  show i ∈ ((View.whole main_v2).slice (win0_5.rect t)).set ↔ _
  rw [View.set_slice_whole, Rect.mem_set_unit]
  exact Iff.rfl

/-- The blocks tile the matrix: entry `(r, n)` is in the block of point `(r / 512) · 43 + n / 256`. -/
theorem cover (i : S8192x11008.Idx) :
    ∃ t : Fin cfg0.N, (cfg0.win 5).flush t = true ∧ i ∈ ((cfg0.win 5).blk t).view.set := by
  have hi0 : (i 0).val < 8192 := (i 0).isLt
  have hi1 : (i 1).val < 11008 := (i 1).isLt
  have hlt : (i 0).val / 512 * 43 + (i 1).val / 256 < cfg0.N := by
    have e : cfg0.N = 688 := N_0
    omega
  obtain ⟨f50, f51, -⟩ := idx_facts ⟨(i 0).val / 512 * 43 + (i 1).val / 256, hlt⟩
  refine ⟨⟨(i 0).val / 512 * 43 + (i 1).val / 256, hlt⟩, flush0_5 _, ?_⟩
  rw [mem_blk]
  have g0 : win0_5.index ⟨(i 0).val / 512 * 43 + (i 1).val / 256, hlt⟩ (0 : Fin 2) = (i 0).val / 512 := by
    rw [f50]; show ((i 0).val / 512 * 43 + (i 1).val / 256) / 43 = (i 0).val / 512; omega
  have g1 : win0_5.index ⟨(i 0).val / 512 * 43 + (i 1).val / 256, hlt⟩ (1 : Fin 2) = (i 1).val / 256 := by
    rw [f51]; show ((i 0).val / 512 * 43 + (i 1).val / 256) % 43 = (i 1).val / 256; omega
  intro a
  match a with
  | ⟨0, _⟩ =>
    show win0_5.index _ (0 : Fin 2) * 512 ≤ (i 0).val ∧ (i 0).val < win0_5.index _ (0 : Fin 2) * 512 + 512
    rw [g0]; omega
  | ⟨1, _⟩ =>
    show win0_5.index _ (1 : Fin 2) * 256 ≤ (i 1).val ∧ (i 1).val < win0_5.index _ (1 : Fin 2) * 256 + 256
    rw [g1]; omega

/-- THE RESULT MATRIX after the region is the region's matrix. -/
theorem final (c : Dev nD) : (dats m 0 c).arrAt 5 cfg0.N = regionValue m c :=
  (dats m 0 c).arrAt_eq_of_cover 5 (regionValue m c) (fun t _ => flushed_eq m c t) cover

/-- Before the region the program re-lays `x` as the `[8192, 4096]` matrix -/
theorem entry_v0 (c : Dev nD) (h : S4x2048x4096.ShapeCasts S8192x4096) :
    (V m c main_v0 : S8192x4096.Idx → EReal) = shapeCast S8192x4096 (m ((c : Thread nD τ).loc main_arg0)) h := by
  show StableHlo.after hostOps0 (fun b => m (c, b)) (Proc.devRef .tc main_v0) = _
  after_results
  rfl

/-- and the bias as a one-row matrix. -/
theorem entry_v1 (c : Dev nD) (h : S11008.ShapeCasts S1x11008) :
    (V m c main_v1 : S1x11008.Idx → EReal) = shapeCast S1x11008 (m ((c : Thread nD τ).loc main_arg4)) h := by
  show StableHlo.after hostOps0 (fun b => m (c, b)) (Proc.devRef .tc main_v1) = _
  after_results
  rfl

/-- After the region it re-lays the result matrix as `[4, 2048, 11008]`. -/
theorem tail_eq (c : Dev nD) (h2 : S8192x11008.ShapeCasts S4x2048x11008) :
    Pipeline.afterTail₀ cfgs (dats m) 0 (V0 m) [hostOps1] c main_v3
      = shapeCast S4x2048x11008 ((dats m 0 c).arrAt 5 cfg0.N) h2 := by
  unfold Pipeline.afterTail₀
  show StableHlo.after hostOps1 _ (Proc.devRef .tc main_v3) = _
  after_results
  exact congrArg (fun a => shapeCast S4x2048x11008 a h2) (Pipeline.withArrays_arr spec0 launch0.win.arr_inj c _ _ 5)

/-- The result array after the run, of the arrays as launched: the specification. -/
theorem value_eq (c : Dev nD) (h2 : S8192x11008.ShapeCasts S4x2048x11008) :
    shapeCast S4x2048x11008 ((dats m 0 c).arrAt 5 cfg0.N) h2
      = result (m ((c : Thread nD τ).loc main_arg0)) (m ((c : Thread nD τ).loc main_arg1)) (m ((c : Thread nD τ).loc main_arg2))
          (m ((c : Thread nD τ).loc main_arg3)) (m ((c : Thread nD τ).loc main_arg4)) := by
  rw [final]
  unfold regionValue
  rw [entry_v0 m c Cert.KernelIdeal.Gen.shapeCasts_S4x2048x4096_S8192x4096,
    entry_v1 m c Cert.KernelIdeal.Gen.shapeCasts_S11008_S1x11008, V_main_arg1, V_main_arg2, V_main_arg3]
  exact rows_relaid _ _ _ _ _ _ _ h2

/-- Every weakly fair execution of the program terminates with its result at the specification of the arrays as
    launched, and the arrays unchanged. -/
theorem run : θ_run defs (onTc (τ := τ) (main (F := Ideal))) ⟨m, fun _ => 0, ρ⟩ fun r => ∀ c : Dev nD,
      r.2.mem ((c.tc : Thread nD τ).loc main_v3)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      (((h c).2 main_v3 (Pipeline.mem_restRefs_of main_v3 (by decide) (by decide))).trans
        (tail_eq m c Cert.KernelIdeal.Gen.shapeCasts_S8192x11008_S4x2048x11008)).trans (value_eq m c _),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.ArrayValue

end
-- ==== Proof.RefSpec.lean ====
/-
  The reference computes the specification.

  Its program re-lays the integers as `[11008, 32, 128]`, turns them into reals, subtracts the group's zero point and
  multiplies by the group's scale (each spread over the group's 128 columns), re-lays the weights back as
  `[11008, 4096]`, contracts the last axis of `x` with the weights' columns and adds the bias.  Read at an index
  `(i₀, i₁, o)`, stage by stage, that is the sum over the columns `k` of `x (i₀, i₁, k)` times the weight `(o, k)`, plus
  `b (o)`: going to `[·, 32, 128]` and back sends column `k` to `(k / 128, k % 128)` and back to `k`.
-/
import proofs.«179375_j68470368633330_1_alg».proof.Proof.Gen.ReferenceIdeal.Read
import proofs.«179375_j68470368633330_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.QLinear

/-- The weights the reference builds, read at row `o` (the third coordinate of the result's index), column `k`. -/
theorem weights_apply (x1 : (⟨S11008x4096, .i32⟩ : BufTy).Contents (Elt Ideal))
    (x2 x3 : (⟨S11008x32, .f32⟩ : BufTy).Contents (Elt Ideal)) (i0 : Fin 4) (i1 : Fin 2048) (o : Fin 11008) (k : Fin 4096) :
    val_main_v8 (F := Ideal) x1 x2 x3 (ridx_main_v9 (ix3 i0 i1 o) k) = weight x1 x2 x3 o k := by
  have hk := k.isLt
  have ho := o.isLt
  rw [val_main_v8_apply, val_main_v7_apply, val_main_v6_apply, val_main_v2_apply, val_main_v5_apply, val_main_v1_apply,
    val_main_v0_apply, val_main_v4_apply, val_main_v3_apply]
  have e2 : idx_main_v2 (idx_main_v6 (idx_main_v8 (ridx_main_v9 (ix3 i0 i1 o) k))) = ix2 o (grp k) :=
    funext fun a => Fin.ext (by
      match a with
      | ⟨0, _⟩ => show (o.val * 4096 + k.val) / 4096 = o.val; omega
      | ⟨1, _⟩ => show (o.val * 4096 + k.val) / 128 % 32 = k.val / 128; omega)
  have e3 : idx_main_v3 (idx_main_v4 (idx_main_v8 (ridx_main_v9 (ix3 i0 i1 o) k))) = ix2 o (grp k) :=
    funext fun a => Fin.ext (by
      match a with
      | ⟨0, _⟩ => show (o.val * 4096 + k.val) / 4096 = o.val; omega
      | ⟨1, _⟩ => show (o.val * 4096 + k.val) / 128 % 32 = k.val / 128; omega)
  have e0 : idx_main_v0 (idx_main_v8 (ridx_main_v9 (ix3 i0 i1 o) k)) = ix2 o k :=
    funext fun a => Fin.ext (by
      match a with
      | ⟨0, _⟩ =>
        show ((((o.val * 4096 + k.val) / 4096) * 32 + (o.val * 4096 + k.val) / 128 % 32) * 128 + (o.val * 4096 + k.val) % 128) / 4096 = o.val
        omega
      | ⟨1, _⟩ =>
        show ((((o.val * 4096 + k.val) / 4096) * 32 + (o.val * 4096 + k.val) / 128 % 32) * 128 + (o.val * 4096 + k.val) % 128) % 4096 = k.val
        omega)
  rw [e2, e3, e0]
  rfl

/-- The reference's result, as its last stage, is the specification of the argument arrays. -/
theorem stage_eq (x0 : (⟨S4x2048x4096, .f32⟩ : BufTy).Contents (Elt Ideal)) (x1 : (⟨S11008x4096, .i32⟩ : BufTy).Contents (Elt Ideal))
    (x2 x3 : (⟨S11008x32, .f32⟩ : BufTy).Contents (Elt Ideal)) (x4 : (⟨S11008, .f32⟩ : BufTy).Contents (Elt Ideal)) :
    val_main_v12 (F := Ideal) x0 x1 x2 x3 x4 = result x0 x1 x2 x3 x4 := by
  funext i
  obtain ⟨i0, i1, o, rfl⟩ : ∃ (i0 : Fin 4) (i1 : Fin 2048) (o : Fin 11008), i = ix3 i0 i1 o := ⟨i 0, i 1, i 2, eq_ix3 i⟩
  rw [val_main_v12_apply, val_main_v9_apply, val_main_v11_apply, val_main_v10_apply]
  have eb : idx_main_v10 (idx_main_v11 (ix3 i0 i1 o)) = ix1 o :=
    funext fun a => Fin.ext (by match a with | ⟨0, _⟩ => rfl)
  have el : ∀ k : Fin 4096, lidx_main_v9 (ix3 i0 i1 o) k = ix3 i0 i1 k := fun k =>
    funext fun a => Fin.ext (by match a with | ⟨0, _⟩ => rfl | ⟨1, _⟩ => rfl | ⟨2, _⟩ => rfl)
  rw [eb]
  show (∑ k : Fin 4096, x0 (lidx_main_v9 (ix3 i0 i1 o) k) * val_main_v8 (F := Ideal) x1 x2 x3 (ridx_main_v9 (ix3 i0 i1 o) k)) + x4 (ix1 o)
    = (∑ k : Fin 4096, x0 (ix3 i0 i1 k) * weight x1 x2 x3 o k) + x4 (ix1 o)
  exact congrArg (· + x4 (ix1 o)) (Finset.sum_congr rfl fun k _ => by rw [el k, weights_apply x1 x2 x3 i0 i1 o k])

end Cert.ReferenceIdeal.RefValue

end
-- ==== Proof.lean ====
/-
  A quantized linear layer: the kernel against its reference, over the extended reals.

  Both programs compute, for a row `x (p, ·)` of 4096 numbers and a weight row `o` stored as 4096 integers in 32 groups
  of 128 columns with a scale and a zero point per group,

      y (p, o) = Σ_k x (p, k) · sc (o, k / 128) · (q (o, k) − z (o, k / 128)) + b (o).

  The kernel tiles the `[8192, 11008]` result into 16 × 43 blocks of `512 × 256`, builds the block's weights from the
  staged integers, scales and zero points, multiplies the staged rows of `x` by them into a zero accumulator and adds
  the bias; its changes of float format are the identity on the extended reals.  The reference builds all the weights
  and contracts once.  Each entry is the same sum over the same 4096 columns on both sides, so the two results agree
  index by index with no law beyond rewriting indices, and the precondition is never opened.

  The three frames are the generated frame runs (the reference's is its generated run with the result dropped); the
  idealization rewrote no operation; the value claim sets the kernel's run (Proof/KernelValue.lean) beside the
  reference's generated run read stage by stage (Proof/RefSpec.lean), both at the one specification (Proof/Spec.lean).
-/
import proofs.«179375_j68470368633330_1_alg».proof.Defs
import proofs.«179375_j68470368633330_1_alg».proof.Proof.Gen.Kernel
import proofs.«179375_j68470368633330_1_alg».proof.Proof.Gen.Kernel.Skeleton
import proofs.«179375_j68470368633330_1_alg».proof.Proof.Gen.Kernel.Launch
import proofs.«179375_j68470368633330_1_alg».proof.Proof.Gen.Kernel.Points
import proofs.«179375_j68470368633330_1_alg».proof.Proof.Gen.Kernel.Frame
import proofs.«179375_j68470368633330_1_alg».proof.Proof.Gen.KernelIdeal
import proofs.«179375_j68470368633330_1_alg».proof.Proof.Gen.KernelIdeal.Skeleton
import proofs.«179375_j68470368633330_1_alg».proof.Proof.Gen.KernelIdeal.Launch
import proofs.«179375_j68470368633330_1_alg».proof.Proof.Gen.KernelIdeal.Points
import proofs.«179375_j68470368633330_1_alg».proof.Proof.Gen.KernelIdeal.Frame
import proofs.«179375_j68470368633330_1_alg».proof.Proof.Gen.ReferenceIdeal
import proofs.«179375_j68470368633330_1_alg».proof.Proof.Gen.ReferenceIdeal.Run
import proofs.«179375_j68470368633330_1_alg».proof.Proof.Gen.ReferenceIdeal.Read
import proofs.«179375_j68470368633330_1_alg».proof.Proof.Gen.Pre_finite_inputs
import proofs.«179375_j68470368633330_1_alg».proof.Proof.KernelValue
import proofs.«179375_j68470368633330_1_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arrays the kernel's result array and the reference's both end holding the
    layer's specification of those arrays. -/
theorem algebraic : Cert.algebraic_KernelIdeal_ReferenceIdeal := by
  intro m ρ m' ρ' _ hagree
  refine ⟨fun c => Cert.QLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.RefValue.stage_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
